-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2048x64x1024 : Shape := ⟨3, ![2048, 64, 1024]⟩
abbrev S512x1536 : Shape := ⟨2, ![512, 1536]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S2048x64x1024 : S_.BroadcastsInDim S2048x64x1024 (![] : Fin 0 → Fin S2048x64x1024.rank)
  reducesTo_S2048x64x1024_S_d0_1_2 : S2048x64x1024.ReducesTo [0, 1, 2] S_
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x512 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S64x512 .f32) (main_arg1 : FVec F S2048x64x1024 .f32) (main_arg2 : FVec F S512x1536 .f32) (main_arg3 : FVec F S512 .f32) (main_arg4 : FVec F S1x512 .f32) (main_arg5 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S2048x64x1024 .f32 := Host.absf main_arg1
  let main_cst_0 : FVec F S_ .f32 := constant S_ .f32 0x7F800000#32
  let main_v5 : FVec F S2048x64x1024 .f32 := broadcastInDim S2048x64x1024 ![] bcast_S_S2048x64x1024 main_cst_0
  let main_v6 : IVec S2048x64x1024 1 := cmpf .olt main_v4 main_v5
  let main_c_1 : IVec S_ 1 := constantI S_ 1 1#1
  let main_v7 : IVec S_ 1 := (fun x v => Host.reduce IntOp.andi x v reducesTo_S2048x64x1024_S_d0_1_2 h_S_) main_v6 main_c_1
  let main_v8 : IVec S_ 1 := andi main_v3 main_v7
  let main_v9 : FVec F S512x1536 .f32 := Host.absf main_arg2
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  let main_c_3 : IVec S_ 1 := constantI S_ 1 1#1
  let main_v12 : IVec S_ 1 := (fun x v => Host.reduce IntOp.andi x v reducesTo_S512x1536_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S64x512 : Shape := ⟨2, ![64, 512]⟩
abbrev S2048x64x1024 : Shape := ⟨3, ![2048, 64, 1024]⟩
abbrev S512x1536 : Shape := ⟨2, ![512, 1536]⟩
abbrev S512 : Shape := ⟨1, ![512]⟩
abbrev S1x512 : Shape := ⟨2, ![1, 512]⟩
abbrev S1 : Shape := ⟨1, ![1]⟩
abbrev S512x512 : Shape := ⟨2, ![512, 512]⟩
abbrev S512x1024 : Shape := ⟨2, ![512, 1024]⟩
abbrev S1024x512 : Shape := ⟨2, ![1024, 512]⟩
abbrev S2048x64 : Shape := ⟨2, ![2048, 64]⟩
abbrev S32x64x1024 : Shape := ⟨3, ![32, 64, 1024]⟩
abbrev S32x64 : Shape := ⟨2, ![32, 64]⟩
abbrev S2048x1024 : Shape := ⟨2, ![2048, 1024]⟩
abbrev S2048x512 : Shape := ⟨2, ![2048, 512]⟩
abbrev S32x64x512 : Shape := ⟨3, ![32, 64, 512]⟩
abbrev S1x64x512 : Shape := ⟨3, ![1, 64, 512]⟩
abbrev S1x1x512 : Shape := ⟨3, ![1, 1, 512]⟩
abbrev S64 : Shape := ⟨1, ![64]⟩
abbrev S1x64 : Shape := ⟨2, ![1, 64]⟩
abbrev S2048x64x1 : Shape := ⟨3, ![2048, 64, 1]⟩

abbrev nBuf : Space → Nat
  | .hbm => 14
  | .vmem => 14
  | .smem => 0
  | _ => 0

abbrev bufTy : (tb : Table) → Fin (tcTables nBuf tb) → BufTy
  | .hbm, ⟨0, _⟩ => ⟨S64x512, .f32⟩
  | .hbm, ⟨1, _⟩ => ⟨S2048x64x1024, .f32⟩
  | .hbm, ⟨2, _⟩ => ⟨S512x1536, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S512x512, .f32⟩
  | .hbm, ⟨7, _⟩ => ⟨S512x512, .f32⟩
  | .hbm, ⟨8, _⟩ => ⟨S512x1024, .f32⟩
  | .hbm, ⟨9, _⟩ => ⟨S1024x512, .f32⟩
  | .hbm, ⟨10, _⟩ => ⟨S64x512, .f32⟩
  | .hbm, ⟨11, _⟩ => ⟨S2048x64, .f32⟩
  | .hbm, ⟨12, _⟩ => ⟨S2048x64, .f32⟩
  | .hbm, ⟨13, _⟩ => ⟨S2048x64x1, .f32⟩
  | .local _ .vmem, ⟨0, _⟩ => ⟨S64x512, .f32⟩
  | .local _ .vmem, ⟨1, _⟩ => ⟨S512x512, .f32⟩
  | .local _ .vmem, ⟨2, _⟩ => ⟨S512, .f32⟩
  | .local _ .vmem, ⟨3, _⟩ => ⟨S64x512, .f32⟩
  | .local _ .vmem, ⟨4, _⟩ => ⟨S32x64x1024, .f32⟩
  | .local _ .vmem, ⟨5, _⟩ => ⟨S32x64x1024, .f32⟩
  | .local _ .vmem, ⟨6, _⟩ => ⟨S1024x512, .f32⟩
  | .local _ .vmem, ⟨7, _⟩ => ⟨S64x512, .f32⟩
  | .local _ .vmem, ⟨8, _⟩ => ⟨S1x512, .f32⟩
  | .local _ .vmem, ⟨9, _⟩ => ⟨S1, .f32⟩
  | .local _ .vmem, ⟨10, _⟩ => ⟨S32x64, .f32⟩
  | .local _ .vmem, ⟨11, _⟩ => ⟨S32x64, .f32⟩
  | .local _ .vmem, ⟨12, _⟩ => ⟨S2048x64, .f32⟩
  | .local _ .vmem, ⟨13, _⟩ => ⟨S2048x64, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg1_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc2_sem0_0 : DmaSem sig := 12
abbrev cc2_sem1_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S32x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S512x1536_S512x512_0_0 : S512x1536.Slices ![0, 0] S512x512
  transposes_S512x512_S512x512_1_0 : S512x512.Transposes [1, 0] S512x512
  slices_S512x1536_S512x1024_0_512 : S512x1536.Slices ![0, 512] S512x1024
  transposes_S512x1024_S1024x512_1_0 : S512x1024.Transposes [1, 0] S1024x512
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S32x64x1024_S32x64x1024_0_0_0 : ∀ a, (![0, 0, 0] : Fin 3 → Nat) a + S32x64x1024.size a ≤ S32x64x1024.size a
  h_S32x64x1024 : 0 < S32x64x1024.numel
  shapeCasts_S32x64x1024_S2048x1024 : S32x64x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x512_S32x64x512 : S2048x512.ShapeCasts S32x64x512
  shapeCasts_S64x512_S64x512 : S64x512.ShapeCasts S64x512
  shapeCasts_S64x512_S1x64x512 : S64x512.ShapeCasts S1x64x512
  broadcasts_S1x64x512_S32x64x512 : S1x64x512.Broadcasts S32x64x512
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x1x512 : S512.ShapeCasts S1x1x512
  broadcasts_S1x1x512_S32x64x512 : S1x1x512.Broadcasts S32x64x512
  reduces_S32x64x512_S32x64 : S32x64x512.Reduces [2] S32x64
  inb_S1_S1_0 : ∀ a, (![0] : Fin 1 → Nat) a + S1.size a ≤ S1.size a
  h_S1 : 0 < S1.numel
  inpos_S1_p0 : ∀ a, (![0] : Fin 1 → Nat) a < S1.size a
  inb_S32x64_S32x64_0_0 : ∀ a, (![0, 0] : Fin 2 → Nat) a + S32x64.size a ≤ S32x64.size a
  h_S32x64 : 0 < S32x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S64 : S2048x64.Reduces [0] S64
  shapeCasts_S64_S1x64 : S64.ShapeCasts S1x64
  broadcasts_S1x64_S2048x64 : S1x64.Broadcasts S2048x64
  bcast_S2048x64_S2048x64x1_0_1 : S2048x64.BroadcastsInDim S2048x64x1 (![0, 1] : Fin 2 → Fin S2048x64x1.rank)
  dot_S64x512_S512x512_S64x512_1_0_0_1_n_n_wf : DotDims.WF S64x512 S512x512 S64x512 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x1024.size a ≤ S2048x64x1024.size a
  hwx1_0 : ∀ i : grid1.Coords, EltTy.bits .f32 = 32 ∨ (Rect.block (s := S2048x64x1024) S32x64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x512.size a ≤ S64x512.size a
  hwx1_2 : ∀ i : grid1.Coords, EltTy.bits .f32 = 32 ∨ (Rect.block (s := S64x512) S64x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S2048x64.size a
  hwx1_5 : ∀ i : grid1.Coords, EltTy.bits .f32 = 32 ∨ (Rect.block (s := S2048x64) S32x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S2048x64.size a
  hwx2_0 : ∀ i : grid2.Coords, EltTy.bits .f32 = 32 ∨ (Rect.block (s := S2048x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S2048x64.size a
  hwx2_1 : ∀ i : grid2.Coords, EltTy.bits .f32 = 32 ∨ (Rect.block (s := S2048x64) S2048x64.size (cc2_transform_1 i) (hinb2_1 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S32x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S32x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v5) S2048x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v6) S2048x64.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S64x512 : Shape := ⟨2, ![64, 512]⟩
abbrev S2048x64x1024 : Shape := ⟨3, ![2048, 64, 1024]⟩
abbrev S512x1536 : Shape := ⟨2, ![512, 1536]⟩
abbrev S512 : Shape := ⟨1, ![512]⟩
abbrev S1x512 : Shape := ⟨2, ![1, 512]⟩
abbrev S1 : Shape := ⟨1, ![1]⟩
abbrev S1x64x512 : Shape := ⟨3, ![1, 64, 512]⟩
abbrev S2048x64x512 : Shape := ⟨3, ![2048, 64, 512]⟩
abbrev S2048x64x1536 : Shape := ⟨3, ![2048, 64, 1536]⟩
abbrev S1x1x512 : Shape := ⟨3, ![1, 1, 512]⟩
abbrev S2048x64x1 : Shape := ⟨3, ![2048, 64, 1]⟩
abbrev S1x1x1 : Shape := ⟨3, ![1, 1, 1]⟩
abbrev S_ : Shape := ⟨0, ![]⟩
abbrev S64x1 : Shape := ⟨2, ![64, 1]⟩
abbrev S1x64x1 : Shape := ⟨3, ![1, 64, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S2048x64x1024, .f32⟩
  | .hbm, ⟨2, _⟩ => ⟨S512x1536, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S1x64x512, .f32⟩
  | .hbm, ⟨7, _⟩ => ⟨S2048x64x512, .f32⟩
  | .hbm, ⟨8, _⟩ => ⟨S2048x64x1536, .f32⟩
  | .hbm, ⟨9, _⟩ => ⟨S2048x64x512, .f32⟩
  | .hbm, ⟨10, _⟩ => ⟨S1x1x512, .f32⟩
  | .hbm, ⟨11, _⟩ => ⟨S2048x64x512, .f32⟩
  | .hbm, ⟨12, _⟩ => ⟨S2048x64x512, .f32⟩
  | .hbm, ⟨13, _⟩ => ⟨S2048x64x512, .f32⟩
  | .hbm, ⟨14, _⟩ => ⟨S2048x64x1, .f32⟩
  | .hbm, ⟨15, _⟩ => ⟨S1x1x1, .f32⟩
  | .hbm, ⟨16, _⟩ => ⟨S2048x64x1, .f32⟩
  | .hbm, ⟨17, _⟩ => ⟨S2048x64x1, .f32⟩
  | .hbm, ⟨18, _⟩ => ⟨S_, .f32⟩
  | .hbm, ⟨19, _⟩ => ⟨S2048x64x1, .f32⟩
  | .hbm, ⟨20, _⟩ => ⟨S2048x64x1, .f32⟩
  | .hbm, ⟨21, _⟩ => ⟨S2048x64x1, .f32⟩
  | .hbm, ⟨22, _⟩ => ⟨S_, .f32⟩
  | .hbm, ⟨23, _⟩ => ⟨S64x1, .f32⟩
  | .hbm, ⟨24, _⟩ => ⟨S1x64x1, .f32⟩
  | .hbm, ⟨25, _⟩ => ⟨S2048x64x1, .f32⟩
  | .hbm, ⟨26, _⟩ => ⟨S2048x64x1, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S64x512_S1x64x512_1_2 : S64x512.BroadcastsInDim S1x64x512 (![1, 2] : Fin 2 → Fin S1x64x512.rank)
  bcast_S1x64x512_S2048x64x512_0_1_2 : S1x64x512.BroadcastsInDim S2048x64x512 (![0, 1, 2] : Fin 3 → Fin S2048x64x512.rank)
  concatenates_S2048x64x512_S2048x64x1024_S2048x64x1536_d2 : Shape.Concatenates [S2048x64x512, S2048x64x1024] S2048x64x1536 2
  bcast_S512_S1x1x512_2 : S512.BroadcastsInDim S1x1x512 (![2] : Fin 1 → Fin S1x1x512.rank)
  bcast_S1x1x512_S2048x64x512_0_1_2 : S1x1x512.BroadcastsInDim S2048x64x512 (![0, 1, 2] : Fin 3 → Fin S2048x64x512.rank)
  bcast_S1_S1x1x1_2 : S1.BroadcastsInDim S1x1x1 (![2] : Fin 1 → Fin S1x1x1.rank)
  bcast_S1x1x1_S2048x64x1_0_1_2 : S1x1x1.BroadcastsInDim S2048x64x1 (![0, 1, 2] : Fin 3 → Fin S2048x64x1.rank)
  bcast_S_S2048x64x1 : S_.BroadcastsInDim S2048x64x1 (![] : Fin 0 → Fin S2048x64x1.rank)
  reducesTo_S2048x64x1_S64x1_d0 : S2048x64x1.ReducesTo [0] S64x1
  h_S_ : 0 < S_.numel
  bcast_S64x1_S1x64x1_1_2 : S64x1.BroadcastsInDim S1x64x1 (![1, 2] : Fin 2 → Fin S1x64x1.rank)
  bcast_S1x64x1_S2048x64x1_0_1_2 : S1x64x1.BroadcastsInDim S2048x64x1 (![0, 1, 2] : Fin 3 → Fin S2048x64x1.rank)
  dot_S2048x64x1536_S512x1536_S2048x64x512_2_1_01_0_n_n_wf : DotDims.WF S2048x64x1536 S512x1536 S2048x64x512 [2] [1] [0, 1] [0] [] []
  dot_S2048x64x512_S1x512_S2048x64x1_2_1_01_0_n_n_wf : DotDims.WF S2048x64x512 S1x512 S2048x64x1 [2] [1] [0, 1] [0] [] []

variable [Facts₀]

def dot_S2048x64x1536_S512x1536_S2048x64x512_2_1_01_0_n_n : DotDims S2048x64x1536 S512x1536 S2048x64x512 where
  lhsContracting := [2]
  rhsContracting := [1]
  lhsNonContracting := [0, 1]
  rhsNonContracting := [0]
  lhsBatch := []
  rhsBatch := []
  wf := dot_S2048x64x1536_S512x1536_S2048x64x512_2_1_01_0_n_n_wf
def dot_S2048x64x512_S1x512_S2048x64x1_2_1_01_0_n_n : DotDims S2048x64x512 S1x512 S2048x64x1 where
  lhsContracting := [2]
  rhsContracting := [1]
  lhsNonContracting := [0, 1]
  rhsNonContracting := [0]
  lhsBatch := []
  rhsBatch := []
  wf := dot_S2048x64x512_S1x512_S2048x64x1_2_1_01_0_n_n_wf

class Facts : Prop extends Facts₀ where

variable [Facts]
-- ==== Proof.KernelRun.lean ====
/-
  The idealized kernel's run with its result named.

  The program is three pallas_calls between two stretches of host operations.  Its buffer contents at the
  segment boundaries are a fold from the launch memory: after the slices and transposes of the weight matrix,
  after each call's write-backs, and after the final broadcast that appends the unit axis.  Every weakly fair
  execution terminates with each unscoped buffer at the last boundary's contents; read at the result buffer this
  names the result, and read at the arguments it gives them back unchanged.
-/
import proofs.«180736_j72464688218781_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six arguments as launched. -/
theorem run : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.Region0.lean ====
/-
  The first pallas_call: one grid point, every window its whole array.

  Each input window's block at the one point is the array the call finds, and the one store of the body writes the
  whole output block, so after the call the output array holds the body's value of the three input arrays.
-/
import proofs.«180736_j72464688218781_2_alg».proof.Proof.Gen.KernelIdeal.Frame
import Idealize.ShloMosaic.Lib.Pipeline.Value
set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- Every window's block index is zero on every axis at the one grid point. -/
theorem index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- The first window's block is the whole first operand. -/
theorem block0 (c : Dev nD) (t : Fin cfg0.N) : iblk0 V c 0 t = V c main_arg0 := by
  obtain ⟨e0, e1, -⟩ := index_zero t
  funext y
  show V c main_arg0 (((cfg0.win 0).blk t).view.emb y) = V c main_arg0 y
  refine congrArg (V c main_arg0) (funext fun a => Fin.ext ?_)
  match a with
  | ⟨0, _⟩ => show win0_0.index t (0 : Fin 2) * 64 + 1 * (y 0).val = (y 0).val; rw [e0]; omega
  | ⟨1, _⟩ => show win0_0.index t (1 : Fin 2) * 512 + 1 * (y 1).val = (y 1).val; rw [e1]; omega

/-- The second window's block is the whole second operand. -/
theorem block1 (c : Dev nD) (t : Fin cfg0.N) : iblk0 V c 1 t = V c main_v1 := by
  obtain ⟨-, -, e0, e1, -⟩ := index_zero t
  funext y
  show V c main_v1 (((cfg0.win 1).blk t).view.emb y) = V c main_v1 y
  refine congrArg (V c main_v1) (funext fun a => Fin.ext ?_)
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- The third window's block is the whole third operand. -/
theorem block2 (c : Dev nD) (t : Fin cfg0.N) : iblk0 V c 2 t = V c main_arg3 := by
  obtain ⟨-, -, -, -, e0, -⟩ := index_zero t
  funext y
  show V c main_arg3 (((cfg0.win 2).blk t).view.emb y) = V c main_arg3 y
  refine congrArg (V c main_arg3) (funext fun a => Fin.ext ?_)
  match a with
  | ⟨0, _⟩ => show win0_2.index t (0 : Fin 1) * 512 + 1 * (y 0).val = (y 0).val; rw [e0]; omega

/-- What the call leaves in its output array: the body's value of the three operands as the call finds them. -/
def result (c : Dev nD) : Buf (Elt F) ((c : Thread nD τ).loc main_v4) :=
  k0_pay1 (V c main_arg0) (V c main_v1) (V c main_arg3)

/-- The one point writes back the whole result. -/
theorem flushed_eq (c : Dev nD) (t : Fin cfg0.N) :
    (dat0 V c).flushed 3 t = ((cfg0.win 3).blk t).view.read (Elt F) (result V c) := by
  show (cfg0.win 3).cut (grid0.coords t) ((dat0 V c).after 3 t) = _
  rw [after0_3]
  unfold out0_3
  rw [View.canon_unit_zero zeros2]
  simp only [View.ld_unit_zero (S := S64x512) zeros2, View.ld_unit_zero (S := S512x512) zeros2, View.ld_unit_zero (S := S512) zeros1]
  rw [block0, block1, block2]
  obtain ⟨-, -, -, -, -, e0, e1⟩ := index_zero t
  funext y
  show result V c _ = result V c (((cfg0.win 3).blk t).view.emb y)
  refine congrArg (result V c) (funext fun a => Fin.ext ?_)
  match a with
  | ⟨0, _⟩ => show (y 0).val = win0_3.index t (0 : Fin 2) * 64 + 1 * (y 0).val; rw [e0]; omega
  | ⟨1, _⟩ => show (y 1).val = win0_3.index t (1 : Fin 2) * 512 + 1 * (y 1).val; rw [e1]; omega

/-- The output array after the call is the result. -/
theorem final (c : Dev nD) : (dat0 V c).arrAt 3 cfg0.N = result V c :=
  (dat0 V c).arrAt_eq_of_cover 3 (result V c) (fun t _ => flushed_eq V c t) fun i =>
    ⟨t0_0, flush0_3 t0_0, by
      obtain ⟨-, -, -, -, -, e0, e1⟩ := index_zero t0_0
      show i ∈ ((View.whole main_v4).slice (win0_3.rect t0_0)).set
      rw [View.set_slice_whole, Rect.mem_set_unit]
      intro a
      have h0 : (i 0 : Nat) < 64 := (i 0).isLt
      have h1 : (i 1 : Nat) < 512 := (i 1).isLt
      match a with
      | ⟨0, _⟩ => show win0_3.index t0_0 (0 : Fin 2) * 64 ≤ (i 0 : Nat) ∧ (i 0 : Nat) < win0_3.index t0_0 (0 : Fin 2) * 64 + 64; rw [e0]; omega
      | ⟨1, _⟩ => show win0_3.index t0_0 (1 : Fin 2) * 512 ≤ (i 1 : Nat) ∧ (i 1 : Nat) < win0_3.index t0_0 (1 : Fin 2) * 512 + 512; rw [e1]; omega⟩

end Cert.KernelIdeal.Region0

end
-- ==== Proof.Region1.lean ====
/-
  The second pallas_call: sixty-four grid points over blocks of thirty-two source positions.

  At point t the first window's block is source positions 32 t … 32 t + 31 of the encoder array and the output
  window's block is the same positions of the logits; the other four windows are whole arrays at every point.  The
  body's one store writes the whole output block, so what point t writes back is the body's value of block t of the
  encoder array and the four whole operands.  Position s lies in block s / 32 at offset s % 32, so the logits array
  after the call is one function of the operands: at (s, b) the body's value of block s / 32, read at (s % 32, b).
-/
import proofs.«180736_j72464688218781_2_alg».proof.Proof.Gen.KernelIdeal.Frame
import Idealize.ShloMosaic.Lib.Pipeline.Value
import Idealize.ShloMosaic.Lib.ValueIdx
set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F] [Named F]
variable (V : (c : Dev nD) → (b : Ref sig .tc) → Buf (Elt F) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the encoder window and the output window move with the point along the
    source axis; every other block index is zero. -/
theorem index_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A grid point's number is below sixty-four. -/
theorem point_lt (t : Fin cfg1.N) : t.val < 64 := Nat.lt_of_lt_of_eq t.isLt N_1

/-- Block q of an encoder-shaped array: source positions 32 q … 32 q + 31. -/
def encBlock (X : S2048x64x1024.Idx → Elt F .f32) (q : Nat) (hq : q < 64) : Vec F S32x64x1024 .f32 :=
  fun y => X (ix3 (⟨q * 32 + (y 0).val, by have := (y 0).isLt; have h : (y 0).val < 32 := this; omega⟩ : Fin 2048)
    (⟨(y 1).val, (y 1).isLt⟩ : Fin 64) (⟨(y 2).val, (y 2).isLt⟩ : Fin 1024))

/-- The encoder window's block at point t is block t of the encoder array. -/
theorem block0 (c : Dev nD) (t : Fin cfg1.N) :
    iblk1 V c 0 t = encBlock (V c main_arg1) t.val (point_lt t) := by
  obtain ⟨e0, e1, e2, -⟩ := index_facts t
  funext y
  show V c main_arg1 (((cfg1.win 0).blk t).view.emb y) = V c main_arg1 _
  refine congrArg (V c main_arg1) (funext fun a => Fin.ext ?_)
  match a with
  | ⟨0, _⟩ => show win1_0.index t (0 : Fin 3) * 32 + 1 * (y 0).val = t.val * 32 + (y 0).val; rw [e0]; omega
  | ⟨1, _⟩ => show win1_0.index t (1 : Fin 3) * 64 + 1 * (y 1).val = (y 1).val; rw [e1]; omega
  | ⟨2, _⟩ => show win1_0.index t (2 : Fin 3) * 1024 + 1 * (y 2).val = (y 2).val; rw [e2]; omega

theorem block1 (c : Dev nD) (t : Fin cfg1.N) : iblk1 V c 1 t = V c main_v3 := by
  obtain ⟨-, -, -, e0, e1, -⟩ := index_facts t
  funext y
  show V c main_v3 (((cfg1.win 1).blk t).view.emb y) = V c main_v3 y
  refine congrArg (V c main_v3) (funext fun a => Fin.ext ?_)
  match a with
  | ⟨0, _⟩ => show win1_1.index t (0 : Fin 2) * 1024 + 1 * (y 0).val = (y 0).val; rw [e0]; omega
  | ⟨1, _⟩ => show win1_1.index t (1 : Fin 2) * 512 + 1 * (y 1).val = (y 1).val; rw [e1]; omega

theorem block2 (c : Dev nD) (t : Fin cfg1.N) : iblk1 V c 2 t = V c main_v4 := by
  obtain ⟨-, -, -, -, -, e0, e1, -⟩ := index_facts t
  funext y
  show V c main_v4 (((cfg1.win 2).blk t).view.emb y) = V c main_v4 y
  refine congrArg (V c main_v4) (funext fun a => Fin.ext ?_)
  match a with
  | ⟨0, _⟩ => show win1_2.index t (0 : Fin 2) * 64 + 1 * (y 0).val = (y 0).val; rw [e0]; omega
  | ⟨1, _⟩ => show win1_2.index t (1 : Fin 2) * 512 + 1 * (y 1).val = (y 1).val; rw [e1]; omega

theorem block3 (c : Dev nD) (t : Fin cfg1.N) : iblk1 V c 3 t = V c main_arg4 := by
  obtain ⟨-, -, -, -, -, -, -, e0, e1, -⟩ := index_facts t
  funext y
  show V c main_arg4 (((cfg1.win 3).blk t).view.emb y) = V c main_arg4 y
  refine congrArg (V c main_arg4) (funext fun a => Fin.ext ?_)
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

theorem block4 (c : Dev nD) (t : Fin cfg1.N) : iblk1 V c 4 t = V c main_arg5 := by
  obtain ⟨-, -, -, -, -, -, -, -, -, e0, -⟩ := index_facts t
  funext y
  show V c main_arg5 (((cfg1.win 4).blk t).view.emb y) = V c main_arg5 y
  refine congrArg (V c main_arg5) (funext fun a => Fin.ext ?_)
  match a with
  | ⟨0, _⟩ => show win1_4.index t (0 : Fin 1) * 1 + 1 * (y 0).val = (y 0).val; rw [e0]; omega

/-- The logits as one function of five arrays: at (s, b) the body's value of block s / 32 of the encoder array and
    the four whole operands, read at (s % 32, b). -/
def logits (X : S2048x64x1024.Idx → Elt F .f32) (we : S1024x512.Idx → Elt F .f32) (ht : S64x512.Idx → Elt F .f32)
    (vw : S1x512.Idx → Elt F .f32) (vb : S1.Idx → Elt F .f32) : S2048x64.Idx → Elt F .f32 :=
  fun i => k1_pay1 (encBlock X ((i 0).val / 32) (by have := (i 0).isLt; have h : (i 0).val < 2048 := this; omega))
    we ht vw vb
    (ix2 (⟨(i 0).val % 32, Nat.mod_lt _ (by decide)⟩ : Fin 32) (⟨(i 1).val, (i 1).isLt⟩ : Fin 64))

/-- What the call leaves in the logits array: the logits of the operands as the call finds them. -/
def result (c : Dev nD) : Buf (Elt F) ((c : Thread nD τ).loc main_v5) :=
  logits (V c main_arg1) (V c main_v3) (V c main_v4) (V c main_arg4) (V c main_arg5)

/-- The body's value depends on the block number only through the block. -/
theorem encBlock_congr (X : S2048x64x1024.Idx → Elt F .f32) {q q' : Nat} (h : q = q') (hq : q < 64) (hq' : q' < 64) :
    encBlock X q hq = encBlock X q' hq' := by subst h; rfl

/-- What point t writes back is block t of the result. -/
theorem flushed_eq (c : Dev nD) (t : Fin cfg1.N) :
    (dat1 V c).flushed 5 t = ((cfg1.win 5).blk t).view.read (Elt F) (result V c) := by
  show (cfg1.win 5).cut (grid1.coords t) ((dat1 V c).after 5 t) = _
  rw [after1_5]
  unfold out1_5
  rw [View.canon_unit_zero zeros2]
  simp only [View.ld_unit_zero (S := S32x64x1024) zeros3, View.ld_unit_zero (S := S1024x512) zeros2,
    View.ld_unit_zero (S := S64x512) zeros2, View.ld_unit_zero (S := S1x512) zeros2, View.ld_unit_zero (S := S1) zeros1]
  rw [block0, block1, block2, block3, block4]
  obtain ⟨-, -, -, -, -, -, -, -, -, -, e0, e1⟩ := index_facts t
  have ht : t.val < 64 := point_lt t
  funext y
  have hy0 : (y 0).val < 32 := (y 0).isLt
  have hy1 : (y 1).val < 64 := (y 1).isLt
  have p0 : ((((cfg1.win 5).blk t).view.emb y) 0).val = t.val * 32 + (y 0).val := by
    show win1_5.index t (0 : Fin 2) * 32 + 1 * (y 0).val = _; rw [e0]; omega
  have p1 : ((((cfg1.win 5).blk t).view.emb y) 1).val = (y 1).val := by
    show win1_5.index t (1 : Fin 2) * 64 + 1 * (y 1).val = _; rw [e1]; omega
  show k1_pay1 (encBlock (V c main_arg1) t.val ht) (V c main_v3) (V c main_v4) (V c main_arg4) (V c main_arg5) _
    = result V c (((cfg1.win 5).blk t).view.emb y)
  unfold result logits
  rw [encBlock_congr (V c main_arg1) (show ((((cfg1.win 5).blk t).view.emb y) 0).val / 32 = t.val by rw [p0]; omega) _ ht]
  refine congrArg (k1_pay1 (encBlock (V c main_arg1) t.val ht) (V c main_v3) (V c main_v4) (V c main_arg4) (V c main_arg5))
    (funext fun a => Fin.ext ?_)
  match a with
  | ⟨0, _⟩ => show (y 0).val = ((((cfg1.win 5).blk t).view.emb y) 0).val % 32; rw [p0]; omega
  | ⟨1, _⟩ => show (y 1).val = ((((cfg1.win 5).blk t).view.emb y) 1).val; rw [p1]

/-- The logits array after the call is the result: position s is covered by point s / 32. -/
theorem final (c : Dev nD) : (dat1 V c).arrAt 5 cfg1.N = result V c :=
  (dat1 V c).arrAt_eq_of_cover 5 (result V c) (fun t _ => flushed_eq V c t) fun i => by
    have h0 : (i 0 : Nat) < 2048 := (i 0).isLt
    have h1 : (i 1 : Nat) < 64 := (i 1).isLt
    let t : Fin cfg1.N := ⟨(i 0).val / 32, by rw [show cfg1.N = 64 from N_1]; omega⟩
    obtain ⟨-, -, -, -, -, -, -, -, -, -, e0, e1⟩ := index_facts t
    have et : t.val = (i 0).val / 32 := rfl
    refine ⟨t, flush1_5 t, ?_⟩
    show i ∈ ((View.whole main_v5).slice (win1_5.rect t)).set
    rw [View.set_slice_whole, Rect.mem_set_unit]
    intro a
    match a with
    | ⟨0, _⟩ => show win1_5.index t (0 : Fin 2) * 32 ≤ (i 0 : Nat) ∧ (i 0 : Nat) < win1_5.index t (0 : Fin 2) * 32 + 32; rw [e0, et]; omega
    | ⟨1, _⟩ => show win1_5.index t (1 : Fin 2) * 64 ≤ (i 1 : Nat) ∧ (i 1 : Nat) < win1_5.index t (1 : Fin 2) * 64 + 64; rw [e1]; omega

end Cert.KernelIdeal.Region1

end
-- ==== Proof.Region2.lean ====
/-
  The third pallas_call: one grid point, both windows their whole arrays.

  The input window's block at the one point is the array the call finds, and the one store of the body writes the
  whole output block, so after the call the output array holds the body's value of the input array.
-/
import proofs.«180736_j72464688218781_2_alg».proof.Proof.Gen.KernelIdeal.Frame
import Idealize.ShloMosaic.Lib.Pipeline.Value
set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

theorem zeros2 : (![0, 0] : Fin 2 → Nat) = fun _ => 0 := funext fun a => by fin_cases a <;> rfl

/-- Both windows' block indices are zero on both axes at the one grid point. -/
theorem index_zero : ∀ t : Fin cfg2.N, win2_0.index t (0 : Fin 2) = 0 ∧ win2_0.index t (1 : Fin 2) = 0
    ∧ win2_1.index t (0 : Fin 2) = 0 ∧ win2_1.index t (1 : Fin 2) = 0 :=
  (by decide +kernel : ∀ t : Fin grid2.N, _)

/-- The input window's block is the whole operand. -/
theorem block0 (c : Dev nD) (t : Fin cfg2.N) : iblk2 V c 0 t = V c main_v5 := by
  obtain ⟨e0, e1, -⟩ := index_zero t
  funext y
  show V c main_v5 (((cfg2.win 0).blk t).view.emb y) = V c main_v5 y
  refine congrArg (V c main_v5) (funext fun a => Fin.ext ?_)
  match a with
  | ⟨0, _⟩ => show win2_0.index t (0 : Fin 2) * 2048 + 1 * (y 0).val = (y 0).val; rw [e0]; omega
  | ⟨1, _⟩ => show win2_0.index t (1 : Fin 2) * 64 + 1 * (y 1).val = (y 1).val; rw [e1]; omega

/-- What the call leaves in its output array: the body's value of the operand as the call finds it. -/
def result (c : Dev nD) : Buf (Elt F) ((c : Thread nD τ).loc main_v6) :=
  k2_pay1 (V c main_v5)

/-- The one point writes back the whole result. -/
theorem flushed_eq (c : Dev nD) (t : Fin cfg2.N) :
    (dat2 V c).flushed 1 t = ((cfg2.win 1).blk t).view.read (Elt F) (result V c) := by
  show (cfg2.win 1).cut (grid2.coords t) ((dat2 V c).after 1 t) = _
  rw [after2_1]
  unfold out2_1
  rw [View.canon_unit_zero zeros2]
  simp only [View.ld_unit_zero (S := S2048x64) zeros2]
  rw [block0]
  obtain ⟨-, -, e0, e1⟩ := index_zero t
  funext y
  show result V c _ = result V c (((cfg2.win 1).blk t).view.emb y)
  refine congrArg (result V c) (funext fun a => Fin.ext ?_)
  match a with
  | ⟨0, _⟩ => show (y 0).val = win2_1.index t (0 : Fin 2) * 2048 + 1 * (y 0).val; rw [e0]; omega
  | ⟨1, _⟩ => show (y 1).val = win2_1.index t (1 : Fin 2) * 64 + 1 * (y 1).val; rw [e1]; omega

/-- The output array after the call is the result. -/
theorem final (c : Dev nD) : (dat2 V c).arrAt 1 cfg2.N = result V c :=
  (dat2 V c).arrAt_eq_of_cover 1 (result V c) (fun t _ => flushed_eq V c t) fun i =>
    ⟨t2_0, flush2_1 t2_0, by
      obtain ⟨-, -, e0, e1⟩ := index_zero t2_0
      show i ∈ ((View.whole main_v6).slice (win2_1.rect t2_0)).set
      rw [View.set_slice_whole, Rect.mem_set_unit]
      intro a
      have h0 : (i 0 : Nat) < 2048 := (i 0).isLt
      have h1 : (i 1 : Nat) < 64 := (i 1).isLt
      match a with
      | ⟨0, _⟩ => show win2_1.index t2_0 (0 : Fin 2) * 2048 ≤ (i 0 : Nat) ∧ (i 0 : Nat) < win2_1.index t2_0 (0 : Fin 2) * 2048 + 2048; rw [e0]; omega
      | ⟨1, _⟩ => show win2_1.index t2_0 (1 : Fin 2) * 64 ≤ (i 1 : Nat) ∧ (i 1 : Nat) < win2_1.index t2_0 (1 : Fin 2) * 64 + 64; rw [e1]; omega⟩

end Cert.KernelIdeal.Region2

end
-- ==== Proof.KernelValue.lean ====
/-
  The idealized kernel's result as one term of its six arguments.

  Walking the boundaries back from the end: the result is the final broadcast of the third call's output; that is
  the softmax body's value of the second call's output; that is the logits of the encoder array, the transposed
  encoder half of the weights, the first call's output, and the two projection operands; and the first call's
  output is the dense body's value of the hidden state, the transposed hidden half of the weights, and the bias.
  Arrays no call or host operation writes are read back to the launch memory.
-/
import proofs.«180736_j72464688218781_2_alg».proof.Proof.Gen.KernelIdeal.Frame
import proofs.«180736_j72464688218781_2_alg».proof.Proof.Region0
import proofs.«180736_j72464688218781_2_alg».proof.Proof.Region1
import proofs.«180736_j72464688218781_2_alg».proof.Proof.Region2
import Idealize.ShloMosaic.Lib.StableHlo.Run
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F] [Named F]
variable (m : (ℓ : Loc nD τ sig) → Buf (Elt F) ℓ) (ρ : Dev nD → PrngReg)

/-- The hidden half of the weight matrix, transposed: entry (k, d) is w(d, k). -/
def whT (w : S512x1536.Idx → Elt F .f32) : S512x512.Idx → Elt F .f32 :=
  transpose S512x512 [1, 0] (extractStridedSlice S512x512 ![0, 0] w slices_S512x1536_S512x512_0_0) transposes_S512x512_S512x512_1_0

/-- The encoder half of the weight matrix, transposed: entry (k, d) is w(d, 512 + k). -/
def weT (w : S512x1536.Idx → Elt F .f32) : S1024x512.Idx → Elt F .f32 :=
  transpose S1024x512 [1, 0] (extractStridedSlice S512x1024 ![0, 512] w slices_S512x1536_S512x1024_0_512) transposes_S512x1024_S1024x512_1_0

/-! ## The first call's operands, as it finds them -/

theorem in0_hidden (c : Dev nD) : V1 m ρ c main_arg0 = m ((c : Thread nD τ).loc main_arg0) := by
  show StableHlo.after hostOps0 (W0 m ρ c) (Proc.devRef .tc main_arg0) = _
  after_results

theorem in0_bias (c : Dev nD) : V1 m ρ c main_arg3 = m ((c : Thread nD τ).loc main_arg3) := by
  show StableHlo.after hostOps0 (W0 m ρ c) (Proc.devRef .tc main_arg3) = _
  after_results

theorem in0_whT (c : Dev nD) : V1 m ρ c main_v1 = whT (m ((c : Thread nD τ).loc main_arg2)) := by
  show StableHlo.after hostOps0 (W0 m ρ c) (Proc.devRef .tc main_v1) = _
  after_results
  rfl

/-! ## The second call's operands -/

theorem in1_enc (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results

theorem in1_vw (c : Dev nD) : V2 m ρ c main_arg4 = m ((c : Thread nD τ).loc main_arg4) := by
  refine (W2_of_ne m ρ c main_arg4 (by decide)).trans ?_
  show StableHlo.after hostOps0 (W0 m ρ c) (Proc.devRef .tc main_arg4) = _
  after_results

theorem in1_vb (c : Dev nD) : V2 m ρ c main_arg5 = m ((c : Thread nD τ).loc main_arg5) := by
  refine (W2_of_ne m ρ c main_arg5 (by decide)).trans ?_
  show StableHlo.after hostOps0 (W0 m ρ c) (Proc.devRef .tc main_arg5) = _
  after_results

theorem in1_weT (c : Dev nD) : V2 m ρ c main_v3 = weT (m ((c : Thread nD τ).loc main_arg2)) := by
  refine (W2_of_ne m ρ c main_v3 (by decide)).trans ?_
  show StableHlo.after hostOps0 (W0 m ρ c) (Proc.devRef .tc main_v3) = _
  after_results
  rfl

theorem in1_hterm (c : Dev nD) : V2 m ρ c main_v4
    = k0_pay1 (m ((c : Thread nD τ).loc main_arg0)) (whT (m ((c : Thread nD τ).loc main_arg2))) (m ((c : Thread nD τ).loc main_arg3)) := by
  refine (W2_arr m ρ c 3).trans ?_
  rw [Region0.final]
  unfold Region0.result
  rw [in0_hidden, in0_whT, in0_bias]

/-! ## The third call's operand -/

theorem in2_logits (c : Dev nD) : V3 m ρ c main_v5
    = Region1.logits (m ((c : Thread nD τ).loc main_arg1)) (weT (m ((c : Thread nD τ).loc main_arg2)))
        (k0_pay1 (m ((c : Thread nD τ).loc main_arg0)) (whT (m ((c : Thread nD τ).loc main_arg2))) (m ((c : Thread nD τ).loc main_arg3)))
        (m ((c : Thread nD τ).loc main_arg4)) (m ((c : Thread nD τ).loc main_arg5)) := by
  refine (W3_arr m ρ c 5).trans ?_
  rw [Region1.final]
  unfold Region1.result
  rw [in1_enc, in1_weT, in1_hterm, in1_vw, in1_vb]

/-! ## The result -/

/-- The kernel's result as one term of six arrays. -/
def term (a0 : S64x512.Idx → Elt F .f32) (a1 : S2048x64x1024.Idx → Elt F .f32) (a2 : S512x1536.Idx → Elt F .f32)
    (a3 : S512.Idx → Elt F .f32) (a4 : S1x512.Idx → Elt F .f32) (a5 : S1.Idx → Elt F .f32) : S2048x64x1.Idx → Elt F .f32 :=
  broadcastInDim S2048x64x1 ![0, 1] bcast_S2048x64_S2048x64x1_0_1
    (k2_pay1 (Region1.logits a1 (weT a2) (k0_pay1 a0 (whT a2) a3) a4 a5))

theorem result_eq (c : Dev nD) : W5 m ρ c (Proc.devRef .tc main_v7)
    = term (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have e : W5 m ρ c (Proc.devRef .tc main_v7)
      = broadcastInDim S2048x64x1 ![0, 1] bcast_S2048x64_S2048x64x1_0_1 (W4 m ρ c (Proc.devRef .tc main_v6)) := by
    show StableHlo.after hostOps3 (W4 m ρ c) (Proc.devRef .tc main_v7) = _
    after_results
  rw [e]
  unfold term
  refine congrArg _ ?_
  refine (W4_arr m ρ c 1).trans ?_
  rw [Region2.final]
  unfold Region2.result
  rw [in2_logits]

end Cert.KernelIdeal.Chain

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.Payloads.lean ====
/-
  The three kernel bodies read entry by entry at the ideal values.

  The first body is a dense layer: entry (b, d) is the sum over k of x(b, k) * w(k, d), plus the bias at d.
  The second body regroups a block of 32 source positions by 64 batch rows into 2048 rows, multiplies by the
  encoder weights, regroups back, adds the first body's term along every source position, takes tanh, weights
  lane d by v(d), sums the lanes and adds the scalar bias.  The third scales by a constant, exponentiates, and
  divides each entry by the sum of its column over the source axis.
-/
import proofs.«180736_j72464688218781_2_alg».proof.Proof.Gen.KernelIdeal.Skeleton
import proofs.«180736_j72464688218781_2_alg».proof.Proof.LibDense
import proofs.«180736_j72464688218781_2_alg».proof.Proof.LibLayout
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.KernelIdeal.Payloads

open Cert.KernelIdeal Cert.KernelIdeal.Gen
open Idealize.ShloMosaic Idealize.ShloMosaic.ValueIdx

/-- The first body at (b, d): the dense layer's row function. -/
theorem hidden_apply (x0 : FVec Ideal S64x512 .f32) (x1 : FVec Ideal S512x512 .f32) (x2 : FVec Ideal S512 .f32)
    (b : Fin 64) (d : Fin 512) :
    k0_pay1 (F := Ideal) x0 x1 x2 (ix2 b d) = (∑ k : Fin 512, x0 (ix2 b k) * x1 (ix2 k d)) + x2 (ix1 d) := by
  show addf (matmul (DotDims.plain 64 512 512) none (truncf .bf16 x0 bitsLt_bf16_f32)
      (truncf .bf16 (shapeCast S512x512 x1 shapeCasts_S512x512_S512x512) bitsLt_bf16_f32) (constant S64x512 .f32 0x00000000#32))
      (broadcastTo S64x512 (shapeCast S1x512 x2 shapeCasts_S512_S1x512) broadcasts_S1x512_S64x512) (ix2 b d) = _
  rw [shapeCast_self, Cert.LibDense.dense_kernel]
  rfl

/-! ## The second body: the attention scores -/

/-- The regrouped encoder block times the encoder weights, regrouped back, at (r, b, d). -/
theorem score_product (x0 : FVec Ideal S32x64x1024 .f32) (x3 : FVec Ideal S1024x512 .f32) (r : Fin 32) (b : Fin 64) (d : Fin 512) :
    shapeCast S32x64x512 (matmul (DotDims.plain 2048 1024 512) none
        (truncf .bf16 (shapeCast S2048x1024 x0 shapeCasts_S32x64x1024_S2048x1024) bitsLt_bf16_f32)
        (truncf .bf16 (shapeCast S1024x512 x3 shapeCasts_S1024x512_S1024x512) bitsLt_bf16_f32)
        (constant S2048x512 .f32 0x00000000#32)) shapeCasts_S2048x512_S32x64x512 (ix3 r b d)
      = ∑ k : Fin 1024, x0 (ix3 r b k) * x3 (ix2 k d) := by
  have hR : r.val * 64 + b.val < 2048 := by have := r.isLt; have := b.isLt; omega
  rw [Cert.LibLayout.shapeCast_dc_abc_apply _ shapeCasts_S2048x512_S32x64x512 r b d (⟨r.val * 64 + b.val, hR⟩ : Fin 2048) rfl]
  refine (Ideal.matmul_constant_zero_apply (DotDims.plain 2048 1024 512) none _ _ _).trans ?_
  refine (Cert.LibDense.plain_sum 2048 1024 512 _ _ _).trans ?_
  refine Finset.sum_congr rfl fun k _ => ?_
  rw [shapeCast_self]
  refine congrArg (· * x3 (ix2 k d)) ?_
  exact Cert.LibLayout.shapeCast_abc_dc_apply x0 shapeCasts_S32x64x1024_S2048x1024 (⟨r.val * 64 + b.val, hR⟩ : Fin 2048) k r b rfl

/-- The first call's term laid along every source position of the block, at (r, b, d). -/
theorem score_hidden (x8 : FVec Ideal S64x512 .f32) (r : Fin 32) (b : Fin 64) (d : Fin 512) :
    broadcastTo S32x64x512 (shapeCast S1x64x512 (shapeCast S64x512 x8 shapeCasts_S64x512_S64x512) shapeCasts_S64x512_S1x64x512)
      broadcasts_S1x64x512_S32x64x512 (ix3 r b d) = x8 (ix2 b d) := by
  rw [shapeCast_self]
  refine (broadcastTo_apply _ broadcasts_S1x64x512_S32x64x512 (ix3 r b d) (ix3 (0 : Fin 1) b d) fun a => ?_).trans ?_
  · match a with
    | ⟨0, _⟩ => rfl
    | ⟨1, _⟩ => rfl
    | ⟨2, _⟩ => rfl
  · exact shapeCast_ab_1ab_apply x8 shapeCasts_S64x512_S1x64x512 (0 : Fin 1) b d

/-- The projection row laid along every source position and batch row, at (r, b, d). -/
theorem score_projection (x14 : FVec Ideal S1x512 .f32) (r : Fin 32) (b : Fin 64) (d : Fin 512) :
    broadcastTo S32x64x512 (shapeCast S1x1x512 (shapeCast S512 x14 shapeCasts_S1x512_S512) shapeCasts_S512_S1x1x512)
      broadcasts_S1x1x512_S32x64x512 (ix3 r b d) = x14 (ix2 (0 : Fin 1) d) := by
  refine (broadcastTo_apply _ broadcasts_S1x1x512_S32x64x512 (ix3 r b d) (ix3 (0 : Fin 1) (0 : Fin 1) d) fun a => ?_).trans ?_
  · match a with
    | ⟨0, _⟩ => rfl
    | ⟨1, _⟩ => rfl
    | ⟨2, _⟩ => rfl
  · refine (shapeCast_apply _ shapeCasts_S512_S1x1x512 (ix3 (0 : Fin 1) (0 : Fin 1) d) (ix1 d) ?_).trans ?_
    · rw [Shape.rowMajor_val_three, Shape.rowMajor_val_one]
      show d.val = (0 * 1 + 0) * 512 + d.val
      omega
    · exact shapeCast_1a_a_apply x14 shapeCasts_S1x512_S512 d

/-- A sum along the lanes of a [32, 64, 512] block, read at (r, b). -/
theorem lane_sum (v : FVec Ideal S32x64x512 .f32) (h : S32x64x512.Reduces [2] S32x64) (hφ : FKind.Formats .f32)
    (hacc : (0x00000000#32 : BitVec 32) = FKind.add.neutral .f32 hφ) (r : Fin 32) (b : Fin 64) :
    multiReduction .add [2] S32x64 v 0x00000000#32 h hφ hacc (ix2 r b) = ∑ d : Fin 512, v (ix3 r b d) := by
  refine (Ideal.multiReduction_add_single v _ h hφ hacc (ix2 r b)).trans ?_
  refine Finset.sum_congr rfl fun d _ => congrArg v (funext fun a => Fin.ext ?_)
  match a with
  | ⟨0, _⟩ => rfl
  | ⟨1, _⟩ => rfl
  | ⟨2, _⟩ => rfl

/-- The second body at (r, b). -/
theorem score_apply (x0 : FVec Ideal S32x64x1024 .f32) (x3 : FVec Ideal S1024x512 .f32) (x8 : FVec Ideal S64x512 .f32)
    (x14 : FVec Ideal S1x512 .f32) (x20 : FVec Ideal S1 .f32) (r : Fin 32) (b : Fin 64) :
    k1_pay1 (F := Ideal) x0 x3 x8 x14 x20 (ix2 r b)
      = (∑ d : Fin 512, Ideal.tanh ((∑ k : Fin 1024, x0 (ix3 r b k) * x3 (ix2 k d)) + x8 (ix2 b d)) * x14 (ix2 (0 : Fin 1) d))
        + x20 (ix1 (0 : Fin 1)) := by
  show multiReduction .add [2] S32x64
      (mulf (tanh (addf
        (shapeCast S32x64x512 (matmul (DotDims.plain 2048 1024 512) none
          (truncf .bf16 (shapeCast S2048x1024 x0 shapeCasts_S32x64x1024_S2048x1024) bitsLt_bf16_f32)
          (truncf .bf16 (shapeCast S1024x512 x3 shapeCasts_S1024x512_S1024x512) bitsLt_bf16_f32)
          (constant S2048x512 .f32 0x00000000#32)) shapeCasts_S2048x512_S32x64x512)
        (broadcastTo S32x64x512 (shapeCast S1x64x512 (shapeCast S64x512 x8 shapeCasts_S64x512_S64x512) shapeCasts_S64x512_S1x64x512)
          broadcasts_S1x64x512_S32x64x512)))
        (broadcastTo S32x64x512 (shapeCast S1x1x512 (shapeCast S512 x14 shapeCasts_S1x512_S512) shapeCasts_S512_S1x1x512)
          broadcasts_S1x1x512_S32x64x512) : FVec Ideal S32x64x512 .f32)
      0x00000000#32 reduces_S32x64x512_S32x64 (.inl rfl) rfl (ix2 r b)
    + x20 (fun a => ⟨(![0] : Fin 1 → Nat) a, inpos_S1_p0 a⟩) = _
  refine congrArg₂ (· + ·) ((lane_sum _ _ _ _ r b).trans (Finset.sum_congr rfl fun d _ => ?_)) (congrArg x20 (funext fun a => Fin.ext ?_))
  · show Ideal.tanh (_ + _) * _ = _
    rw [score_product, score_hidden, score_projection]
  · match a with
    | ⟨0, _⟩ => rfl

/-! ## The third body: scale, exponentiate, divide by the column sum -/

/-- The named scale is one third. -/
theorem inv3 : Named.named (F := Ideal) κ "inv_3" (φ := .f32) 0x3EAAAAAB#32 = ((1 / 3 : ℝ) : EReal) :=
  IdealRules.named_const.ideal_named_scalar _ _ _ _ rfl

/-- A sum down the rows of a [2048, 64] matrix, read at column b. -/
theorem column_sum (v : FVec Ideal S2048x64 .f32) (h : S2048x64.Reduces [0] S64) (hφ : FKind.Formats .f32)
    (hacc : (0x00000000#32 : BitVec 32) = FKind.add.neutral .f32 hφ) (b : Fin 64) :
    multiReduction .add [0] S64 v 0x00000000#32 h hφ hacc (ix1 b) = ∑ s : Fin 2048, v (ix2 s b) := by
  refine (Ideal.multiReduction_add_single v _ h hφ hacc (ix1 b)).trans ?_
  refine Finset.sum_congr rfl fun s _ => congrArg v (funext fun a => Fin.ext ?_)
  match a with
  | ⟨0, _⟩ => rfl
  | ⟨1, _⟩ => rfl

/-- The third body at (s, b). -/
theorem softmax_apply (x : FVec Ideal S2048x64 .f32) (s : Fin 2048) (b : Fin 64) :
    k2_pay1 (F := Ideal) x (ix2 s b)
      = Ideal.div (Ideal.exp (x (ix2 s b) * ((1 / 3 : ℝ) : EReal)))
          (∑ s' : Fin 2048, Ideal.exp (x (ix2 s' b) * ((1 / 3 : ℝ) : EReal))) := by
  have hE : (exp (mulf (shapeCast S2048x64 x shapeCasts_S2048x64_S2048x64)
      (broadcast S2048x64 (Named.named (F := Ideal) κ "inv_3" (φ := .f32) 0x3EAAAAAB#32))) : FVec Ideal S2048x64 .f32)
      = fun j => Ideal.exp (x j * ((1 / 3 : ℝ) : EReal)) := by
    rw [shapeCast_self]
    funext j
    show Ideal.exp (x j * Named.named (F := Ideal) κ "inv_3" (φ := .f32) 0x3EAAAAAB#32) = _
    rw [inv3]
  show Ideal.div ((exp (mulf (shapeCast S2048x64 x shapeCasts_S2048x64_S2048x64)
      (broadcast S2048x64 (Named.named (F := Ideal) κ "inv_3" (φ := .f32) 0x3EAAAAAB#32))) : FVec Ideal S2048x64 .f32) (ix2 s b))
    (broadcastTo S2048x64 (shapeCast S1x64 (multiReduction .add [0] S64
      (exp (mulf (shapeCast S2048x64 x shapeCasts_S2048x64_S2048x64)
        (broadcast S2048x64 (Named.named (F := Ideal) κ "inv_3" (φ := .f32) 0x3EAAAAAB#32))) : FVec Ideal S2048x64 .f32)
      0x00000000#32 reduces_S2048x64_S64 (.inl rfl) rfl) shapeCasts_S64_S1x64) broadcasts_S1x64_S2048x64 (ix2 s b)) = _
  rw [hE, broadcastTo_1b_ab_apply, shapeCast_a_1a_apply]
  exact congrArg (Ideal.div _) (column_sum _ _ _ _ b)

end Cert.KernelIdeal.Payloads

end
-- ==== Proof.Spec.lean ====
/-
  Additive attention with a temperature softmax over the source axis, as one function of six arrays.

  For hidden state h [64, 512], encoder outputs e [2048, 64, 1024], weights w [512, 1536], bias [512], projection
  v [1, 512] and its scalar bias [1]:
    hidden term (b, d)  =  sum_k h(b, k) * w(d, k)  +  bias(d)                                   (k < 512)
    energy (s, b, d)    =  tanh( sum_k e(s, b, k) * w(d, 512 + k)  +  hidden term (b, d) )          (k < 1024)
    logit (s, b)        =  sum_d energy(s, b, d) * v(0, d)  +  vb(0)
    weight (s, b)       =  exp( logit(s, b) * (1/3) )
    attention (s, b, 0) =  weight(s, b) / sum_s' weight(s', b).
  The reference multiplies the concatenation [h ; e] by w over all 1536 columns at once and then adds the bias;
  a sum over 1536 columns is the sum over the first 512 plus the sum over the last 1024, and addition of extended
  reals is commutative and associative, so the two groupings agree with no finiteness needed.  The reference
  divides by 3 where the kernel multiplies by the named constant 1/3; division of an extended real by a nonzero real
  is multiplication by its reciprocal.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Attention

open Idealize.ShloMosaic Idealize.ShloMosaic.ValueIdx

/-- Column k of the hidden half of the weights. -/
def lo (k : Fin 512) : Fin 1536 := ⟨k.val, by omega⟩
/-- Column k of the encoder half of the weights. -/
def hi (k : Fin 1024) : Fin 1536 := ⟨512 + k.val, by omega⟩

/-- A sum over the 1536 columns is the sum over the first 512 plus the sum over the last 1024. -/
theorem sum_split {M : Type} [AddCommMonoid M] (f : Fin 1536 → M) :
    ∑ i : Fin 1536, f i = (∑ k : Fin 512, f (lo k)) + ∑ k : Fin 1024, f (hi k) :=
  Fin.sum_univ_add (a := 512) (b := 1024) f

/-- The reference's grouping of the pre-activation against the kernel's. -/
theorem regroup (H E b : EReal) : (H + E) + b = E + (H + b) := by
  rw [add_comm H E, add_assoc]

/-- The word 0x40400000 is the number 3. -/
theorem word_three : Ideal.ofBits .f32 0x40400000#32 = ((3 : ℝ) : EReal) := by
  simp [Ideal.ofBits, Ideal.ieee, -EReal.coe_mul]; norm_num

/-- Dividing by that word is multiplying by one third, on every extended real. -/
theorem div_three (x : EReal) : Ideal.div x (Ideal.ofBits .f32 0x40400000#32) = x * ((1 / 3 : ℝ) : EReal) := by
  rw [word_three]; exact Ideal.div_coe (by norm_num) x

section
variable (h : (⟨2, ![64, 512]⟩ : Shape).Idx → EReal) (e : (⟨3, ![2048, 64, 1024]⟩ : Shape).Idx → EReal)
  (w : (⟨2, ![512, 1536]⟩ : Shape).Idx → EReal) (bias : (⟨1, ![512]⟩ : Shape).Idx → EReal)
  (vw : (⟨2, ![1, 512]⟩ : Shape).Idx → EReal) (vb : (⟨1, ![1]⟩ : Shape).Idx → EReal)

def hiddenTerm (b : Fin 64) (d : Fin 512) : EReal :=
  (∑ k : Fin 512, h (ix2 b k) * w (ix2 d (lo k))) + bias (ix1 d)

def energy (s : Fin 2048) (b : Fin 64) (d : Fin 512) : EReal :=
  Ideal.tanh ((∑ k : Fin 1024, e (ix3 s b k) * w (ix2 d (hi k))) + hiddenTerm h w bias b d)

def logit (s : Fin 2048) (b : Fin 64) : EReal :=
  (∑ d : Fin 512, energy h e w bias s b d * vw (ix2 (0 : Fin 1) d)) + vb (ix1 (0 : Fin 1))

def weight (s : Fin 2048) (b : Fin 64) : EReal :=
  Ideal.exp (logit h e w bias vw vb s b * ((1 / 3 : ℝ) : EReal))

def attention : (⟨3, ![2048, 64, 1]⟩ : Shape).Idx → EReal :=
  fun i => Ideal.div (weight h e w bias vw vb (i 0) (i 1)) (∑ s : Fin 2048, weight h e w bias vw vb s (i 1))

end

end Cert.Attention

end
-- ==== Proof.KernelBridge.lean ====
/-
  The kernel's term is the attention function.

  Entry by entry: the final broadcast reads the softmax body at (s, b); the softmax body scales, exponentiates and
  divides by the column sum of the logits; the logits at (s, b) are the second body on block s / 32 read at
  (s % 32, b), and 32 * (s / 32) + s % 32 = s puts the encoder row back; the transposed halves of the weights read
  w(d, k) and w(d, 512 + k); the first body is the hidden term.
-/
import proofs.«180736_j72464688218781_2_alg».proof.Proof.KernelValue
import proofs.«180736_j72464688218781_2_alg».proof.Proof.Payloads
import proofs.«180736_j72464688218781_2_alg».proof.Proof.Spec
import Idealize.ShloMosaic.Lib.ValueLayout

set_option maxRecDepth 16384

noncomputable section

open scoped BigOperators

namespace Cert.KernelIdeal.Bridge

open Cert.KernelIdeal Cert.KernelIdeal.Gen Cert.KernelIdeal.Payloads Cert.Attention
open Idealize.ShloMosaic Idealize.ShloMosaic.ValueIdx

variable (a0 : FVec Ideal S64x512 .f32) (a1 : FVec Ideal S2048x64x1024 .f32) (a2 : FVec Ideal S512x1536 .f32)
  (a3 : FVec Ideal S512 .f32) (a4 : FVec Ideal S1x512 .f32) (a5 : FVec Ideal S1 .f32)

/-- The transposed hidden half of the weights at (k, d) is w(d, k). -/
theorem whT_apply (k : Fin 512) (d : Fin 512) : Chain.whT (F := Ideal) a2 (ix2 k d) = a2 (ix2 d (lo k)) := by
  unfold Chain.whT
  refine (transpose_ix2_apply _ transposes_S512x512_S512x512_1_0 k d).trans ?_
  refine extractStridedSlice_apply _ a2 slices_S512x1536_S512x512_0_0 (ix2 d k) (ix2 d (lo k)) fun a => ?_
  match a with
  | ⟨0, _⟩ => show d.val = 0 + d.val; omega
  | ⟨1, _⟩ => show k.val = 0 + k.val; omega

/-- The transposed encoder half of the weights at (k, d) is w(d, 512 + k). -/
theorem weT_apply (k : Fin 1024) (d : Fin 512) : Chain.weT (F := Ideal) a2 (ix2 k d) = a2 (ix2 d (hi k)) := by
  unfold Chain.weT
  refine (transpose_ix2_apply _ transposes_S512x1024_S1024x512_1_0 k d).trans ?_
  refine extractStridedSlice_apply _ a2 slices_S512x1536_S512x1024_0_512 (ix2 d k) (ix2 d (hi k)) fun a => ?_
  match a with
  | ⟨0, _⟩ => show d.val = 0 + d.val; omega
  | ⟨1, _⟩ => show 512 + k.val = 512 + k.val; rfl

/-- The first body on the transposed hidden half is the hidden term. -/
theorem hidden_eq (b : Fin 64) (d : Fin 512) :
    k0_pay1 (F := Ideal) a0 (Chain.whT a2) a3 (ix2 b d) = hiddenTerm a0 a2 a3 b d := by
  rw [hidden_apply]
  unfold hiddenTerm
  refine congrArg (· + a3 (ix1 d)) (Finset.sum_congr rfl fun k _ => ?_)
  rw [whT_apply]

/-- The logits array at (s, b) is the logit. -/
theorem logits_eq (s : Fin 2048) (b : Fin 64) :
    Region1.logits (F := Ideal) a1 (Chain.weT a2) (k0_pay1 (F := Ideal) a0 (Chain.whT a2) a3) a4 a5 (ix2 s b) = logit a0 a1 a2 a3 a4 a5 s b := by
  have hs : s.val < 2048 := s.isLt
  have hq : s.val / 32 < 64 := by omega
  show k1_pay1 (F := Ideal) (Region1.encBlock a1 (s.val / 32) hq) (Chain.weT a2) (k0_pay1 (F := Ideal) a0 (Chain.whT a2) a3) a4 a5
    (ix2 (⟨s.val % 32, Nat.mod_lt _ (by decide)⟩ : Fin 32) (⟨b.val, b.isLt⟩ : Fin 64)) = _
  rw [score_apply]
  unfold logit energy
  refine congrArg (· + a5 (ix1 (0 : Fin 1))) (Finset.sum_congr rfl fun d _ => ?_)
  refine congrArg (· * a4 (ix2 (0 : Fin 1) d)) (congrArg Ideal.tanh ?_)
  refine congrArg₂ (· + ·) (Finset.sum_congr rfl fun k _ => ?_) (hidden_eq a0 a2 a3 b d)
  rw [weT_apply]
  refine congrArg (· * a2 (ix2 d (hi k))) ?_
  unfold Region1.encBlock
  refine congrArg a1 (funext fun a => Fin.ext ?_)
  match a with
  | ⟨0, _⟩ => show s.val / 32 * 32 + s.val % 32 = s.val; omega
  | ⟨1, _⟩ => rfl
  | ⟨2, _⟩ => rfl

/-- The kernel's term is the attention function. -/
theorem term_eq : Chain.term (F := Ideal) a0 a1 a2 a3 a4 a5 = attention a0 a1 a2 a3 a4 a5 := by
  funext i
  obtain ⟨s, b, u, rfl⟩ : ∃ (s : Fin 2048) (b : Fin 64) (u : Fin 1), i = ix3 s b u := ⟨i 0, i 1, i 2, eq_ix3 i⟩
  unfold Chain.term
  refine (broadcastInDim_apply ![0, 1] bcast_S2048x64_S2048x64x1_0_1 _ (ix3 s b u) (ix2 s b) fun a => ?_).trans ?_
  · match a with
    | ⟨0, _⟩ => show s.val = if (2048 : Nat) = 1 then 0 else s.val; rw [if_neg (by decide)]
    | ⟨1, _⟩ => show b.val = if (64 : Nat) = 1 then 0 else b.val; rw [if_neg (by decide)]
  rw [softmax_apply]
  show _ = Ideal.div (weight a0 a1 a2 a3 a4 a5 s b) (∑ s' : Fin 2048, weight a0 a1 a2 a3 a4 a5 s' b)
  unfold weight
  rw [logits_eq]
  refine congrArg (Ideal.div _) (Finset.sum_congr rfl fun s' _ => ?_)
  rw [logits_eq]

end Cert.KernelIdeal.Bridge

end
-- ==== Proof.RefValue.lean ====
/-
  The reference's term is the attention function.

  Read one operation at a time: the concatenation [h ; e] along the feature axis reads h on the first 512 columns
  and e on the last 1024, so the product with the weights over all 1536 columns splits into the hidden sum and the
  encoder sum; the bias is added after both, which regroups to the kernel's order; the projection contracts the
  lanes; the quotient by 3 is the product with one third; the sum over source positions starts from the zero word.
-/
import proofs.«180736_j72464688218781_2_alg».proof.Proof.Gen.ReferenceIdeal.Read
import proofs.«180736_j72464688218781_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

variable (x0 : FVec Ideal S64x512 .f32) (x1 : FVec Ideal S2048x64x1024 .f32) (x2 : FVec Ideal S512x1536 .f32)
  (x3 : FVec Ideal S512 .f32) (x4 : FVec Ideal S1x512 .f32) (x5 : FVec Ideal S1 .f32)

/-- The concatenation on a hidden column reads the hidden state. -/
theorem cat_lo (s : Fin 2048) (b : Fin 64) (k : Fin 512) :
    val_main_v2 (F := Ideal) x0 x1 (ix3 s b (lo k)) = x0 (ix2 b k) := by
  unfold val_main_v2
  refine (concatenate_pair_apply_left (t := S2048x64x1536) (s₁ := S2048x64x512) (s₂ := S2048x64x1024) (2 : Fin 3) (val_main_v1 (F := Ideal) x0) x1 concatenates_S2048x64x512_S2048x64x1024_S2048x64x1536_d2
    (ix3 s b (lo k)) rfl (ix3 s b k) fun a => ?_).trans ?_
  · match a with
    | ⟨0, _⟩ => rfl
    | ⟨1, _⟩ => rfl
    | ⟨2, _⟩ => rfl
  · rw [val_main_v1_apply, val_main_v0_apply]
    refine congrArg x0 (funext fun a => Fin.ext ?_)
    match a with
    | ⟨0, _⟩ => rfl
    | ⟨1, _⟩ => rfl

/-- The concatenation on an encoder column reads the encoder outputs. -/
theorem cat_hi (s : Fin 2048) (b : Fin 64) (k : Fin 1024) :
    val_main_v2 (F := Ideal) x0 x1 (ix3 s b (hi k)) = x1 (ix3 s b k) := by
  unfold val_main_v2
  refine concatenate_pair_apply_right (t := S2048x64x1536) (s₁ := S2048x64x512) (s₂ := S2048x64x1024) (2 : Fin 3) (val_main_v1 (F := Ideal) x0) x1 concatenates_S2048x64x512_S2048x64x1024_S2048x64x1536_d2
    (ix3 s b (hi k)) rfl rfl (ix3 s b k) (fun a ha => ?_) ?_
  · match a with
    | ⟨0, _⟩ => rfl
    | ⟨1, _⟩ => rfl
    | ⟨2, _⟩ => exact absurd rfl ha
  · show k.val + 512 = 512 + k.val
    omega

/-- The pre-activation at (s, b, d), in the kernel's grouping. -/
theorem pre_eq (s : Fin 2048) (b : Fin 64) (d : Fin 512) :
    val_main_v6 (F := Ideal) x0 x1 x2 x3 (ix3 s b d)
      = (∑ k : Fin 1024, x1 (ix3 s b k) * x2 (ix2 d (hi k))) + hiddenTerm x0 x2 x3 b d := by
  rw [val_main_v6_apply, val_main_v3_apply, val_main_v5_apply, val_main_v4_apply]
  show (∑ k : Fin 1536, val_main_v2 (F := Ideal) x0 x1 (lidx_main_v3 (ix3 s b d) k) * x2 (ridx_main_v3 (ix3 s b d) k))
      + x3 (idx_main_v4 (idx_main_v5 (ix3 s b d))) = _
  have hl : ∀ k : Fin 1536, lidx_main_v3 (ix3 s b d) k = ix3 s b k := fun k => funext fun a => Fin.ext (by
    match a with
    | ⟨0, _⟩ => rfl
    | ⟨1, _⟩ => rfl
    | ⟨2, _⟩ => rfl)
  have hr : ∀ k : Fin 1536, ridx_main_v3 (ix3 s b d) k = ix2 d k := fun k => funext fun a => Fin.ext (by
    match a with
    | ⟨0, _⟩ => rfl
    | ⟨1, _⟩ => rfl)
  have hb : idx_main_v4 (idx_main_v5 (ix3 s b d)) = ix1 d := funext fun a => Fin.ext (by
    match a with
    | ⟨0, _⟩ => rfl)
  simp only [hl, hr, hb]
  rw [sum_split]
  unfold hiddenTerm
  simp only [cat_lo, cat_hi]
  exact regroup _ _ _

/-- The logit at (s, b). -/
theorem logit_eq (s : Fin 2048) (b : Fin 64) (u : Fin 1) :
    val_main_v11 (F := Ideal) x0 x1 x2 x3 x4 x5 (ix3 s b u) = logit x0 x1 x2 x3 x4 x5 s b := by
  obtain rfl : u = 0 := Subsingleton.elim _ _
  rw [val_main_v11_apply, val_main_v8_apply, val_main_v10_apply, val_main_v9_apply]
  show (∑ k : Fin 512, val_main_v7 (F := Ideal) x0 x1 x2 x3 (lidx_main_v8 (ix3 s b 0) k) * x4 (ridx_main_v8 (ix3 s b 0) k))
      + x5 (idx_main_v9 (idx_main_v10 (ix3 s b 0))) = _
  have hl : ∀ k : Fin 512, lidx_main_v8 (ix3 s b (0 : Fin 1)) k = ix3 s b k := fun k => funext fun a => Fin.ext (by
    match a with
    | ⟨0, _⟩ => rfl
    | ⟨1, _⟩ => rfl
    | ⟨2, _⟩ => rfl)
  have hr : ∀ k : Fin 512, ridx_main_v8 (ix3 s b (0 : Fin 1)) k = ix2 (0 : Fin 1) k := fun k => funext fun a => Fin.ext (by
    match a with
    | ⟨0, _⟩ => rfl
    | ⟨1, _⟩ => rfl)
  have hb : idx_main_v9 (idx_main_v10 (ix3 s b (0 : Fin 1))) = ix1 (0 : Fin 1) := funext fun a => Fin.ext (by
    match a with
    | ⟨0, _⟩ => rfl)
  simp only [hl, hr, hb]
  unfold logit energy
  refine congrArg (· + x5 (ix1 (0 : Fin 1))) (Finset.sum_congr rfl fun d _ => ?_)
  refine congrArg (· * x4 (ix2 (0 : Fin 1) d)) ?_
  rw [val_main_v7_apply]
  show Ideal.tanh (val_main_v6 (F := Ideal) x0 x1 x2 x3 (ix3 s b d)) = _
  rw [pre_eq]

/-- The unnormalised weight at (s, b). -/
theorem weight_eq (s : Fin 2048) (b : Fin 64) (u : Fin 1) :
    val_main_v14 (F := Ideal) x0 x1 x2 x3 x4 x5 (ix3 s b u) = weight x0 x1 x2 x3 x4 x5 s b := by
  rw [val_main_v14_apply, val_main_v13_apply, val_main_v12_apply, val_main_cst_apply, logit_eq]
  show Ideal.exp (Ideal.div _ (Ideal.ofBits .f32 0x40400000#32)) = _
  rw [div_three]
  rfl

/-- The reference's term is the attention function. -/
theorem result_eq : val_main_v18 (F := Ideal) x0 x1 x2 x3 x4 x5 = attention x0 x1 x2 x3 x4 x5 := by
  funext i
  obtain ⟨s, b, u, rfl⟩ : ∃ (s : Fin 2048) (b : Fin 64) (u : Fin 1), i = ix3 s b u := ⟨i 0, i 1, i 2, eq_ix3 i⟩
  rw [val_main_v18_apply, val_main_v17_apply, val_main_v16_apply, val_main_v15_apply, val_main_cst_0_apply, weight_eq]
  show Ideal.div _ (Ideal.ofBits .f32 0x00000000#32 + ∑ k : Fin 2048,
      val_main_v14 (F := Ideal) x0 x1 x2 x3 x4 x5 (idx_main_v15 (idx_main_v16 (idx_main_v17 (ix3 s b u))) k)) = _
  have hk : ∀ k : Fin 2048, idx_main_v15 (idx_main_v16 (idx_main_v17 (ix3 s b u))) k = ix3 k b (0 : Fin 1) :=
    fun k => funext fun a => Fin.ext (by
      match a with
      | ⟨0, _⟩ => rfl
      | ⟨1, _⟩ => rfl
      | ⟨2, _⟩ => rfl)
  simp only [hk, weight_eq]
  rw [Ideal.ofBits_zero_f32, zero_add]
  rfl

end Cert.ReferenceIdeal.RefValue

end
-- ==== Proof.lean ====
/-
  Bahdanau additive attention with a temperature softmax over the source axis: a kernel of three pallas_calls
  against one jnp reference, equal as extended reals.

  The kernel computes the hidden term  h · w_hᵀ + bias  once; then, per block of 32 source positions, the logits
  sum_d tanh(e · w_eᵀ + hidden term)(s, b, d) · v(d) + vb;  then the softmax of logit / 3 down the source axis, the
  scale spelt as the named constant 1/3.  The reference multiplies the concatenation [h ; e] by w in one product,
  adds the bias, projects, divides by 3 and normalises.  Both are the one function `Cert.Attention.attention` of the six
  arguments: the product over 1536 columns splits at column 512, the bias regroups by commutativity and associativity
  of addition on the extended reals, and the quotient by 3 is the product with one third.  No step needs the inputs to
  be finite.

  The three frames are the generated ones; the idealization's one rewrite is the named constant's statement.
-/
import proofs.«180736_j72464688218781_2_alg».proof.Defs
import proofs.«180736_j72464688218781_2_alg».proof.Proof.Gen.Kernel
import proofs.«180736_j72464688218781_2_alg».proof.Proof.Gen.Kernel.Skeleton
import proofs.«180736_j72464688218781_2_alg».proof.Proof.Gen.Kernel.Launch
import proofs.«180736_j72464688218781_2_alg».proof.Proof.Gen.Kernel.Points
import proofs.«180736_j72464688218781_2_alg».proof.Proof.Gen.Kernel.Frame
import proofs.«180736_j72464688218781_2_alg».proof.Proof.Gen.KernelIdeal
import proofs.«180736_j72464688218781_2_alg».proof.Proof.Gen.KernelIdeal.Skeleton
import proofs.«180736_j72464688218781_2_alg».proof.Proof.Gen.KernelIdeal.Launch
import proofs.«180736_j72464688218781_2_alg».proof.Proof.Gen.KernelIdeal.Points
import proofs.«180736_j72464688218781_2_alg».proof.Proof.Gen.KernelIdeal.Frame
import proofs.«180736_j72464688218781_2_alg».proof.Proof.Gen.ReferenceIdeal
import proofs.«180736_j72464688218781_2_alg».proof.Proof.Gen.ReferenceIdeal.Run
import proofs.«180736_j72464688218781_2_alg».proof.Proof.Gen.ReferenceIdeal.Read
import proofs.«180736_j72464688218781_2_alg».proof.Proof.Gen.Pre_finite_inputs
import proofs.«180736_j72464688218781_2_alg».proof.Proof.KernelRun
import proofs.«180736_j72464688218781_2_alg».proof.Proof.KernelValue
import proofs.«180736_j72464688218781_2_alg».proof.Proof.KernelBridge
import proofs.«180736_j72464688218781_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the scale 0x3EAAAAAB is named 1/3. -/
theorem preserves : Cert.preserves_Kernel_KernelIdeal :=
  IdealRules.named_const.statement Cert.KernelIdeal.κ "inv_3" .f32 0x3EAAAAAB#32 ((1 / 3 : ℝ) : EReal) rfl

/-- Both programs end with the attention function of the arguments in their result buffers. -/
theorem algebraic : Cert.algebraic_KernelIdeal_ReferenceIdeal := by
  intro m ρ m' ρ' _ hagree
  refine ⟨fun c => Cert.Attention.attention
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Run.run (F := Ideal) m ρ)
    rw [Cert.KernelIdeal.Chain.result_eq, Cert.KernelIdeal.Bridge.term_eq]
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v18_eq, Cert.ReferenceIdeal.RefValue.result_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
